-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S800000x1 : Shape := ⟨2, ![800000, 1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S800000 32) (main_arg2 : IVec S800000 32) (main_arg3 : FVec F S800000x1 .f32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg3
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S800000 : Shape := ⟨1, ![800000]⟩
abbrev S800000x1 : Shape := ⟨2, ![800000, 1]⟩
abbrev S128x128 : Shape := ⟨2, ![128, 128]⟩
abbrev S128 : Shape := ⟨1, ![128]⟩
abbrev S_ : Shape := ⟨0, ![]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 32
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000x1, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S50000x1, .f32⟩
  | .hbm, ⟨25, _⟩ => ⟨S800000x1, .i32⟩
  | .hbm, ⟨26, _⟩ => ⟨S50000x1, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S1x128, .f32⟩
  | .hbm, ⟨31, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S800000x1 : Shape := ⟨2, ![800000, 1]⟩
abbrev S128x128 : Shape := ⟨2, ![128, 128]⟩
abbrev S128 : Shape := ⟨1, ![128]⟩
abbrev S_ : Shape := ⟨0, ![]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000x1, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S_, .f32⟩
  | .hbm, ⟨24, _⟩ => ⟨S50000x1, .f32⟩
  | .hbm, ⟨25, _⟩ => ⟨S800000x1, .i32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LayerSpec.lean ====
/-
  The layer both programs compute, written once over the extended reals.

  A node `p` carries a feature row `x p`, a weighted sum `nb p` of its in-neighbours' feature rows and the sum
  `dg p` of the weights of its incoming edges. The layer's row `p` is

      (x p · Ws + bs) + ((nb p / (dg p + ε)) · Wn) + bp,

  two products with `128 × 128` matrices (here already transposed: `ws k q` multiplies input feature `k` into output
  feature `q`), the neighbour sum first divided, entry by entry, by the shifted weight sum of the node. Entry `(p, q)`
  is spelt by coordinates (`entry`), the whole array is `layer`; the number of nodes `M` is a parameter so that the same
  words describe one block of rows and the whole array, and `entry_congr` says a row of the result is a function of the
  same row of the three node arrays only.
-/
import Idealize.ShloMosaic.PureOps.Ideal
import Idealize.ShloMosaic.Lib.ValueIdx

noncomputable section

open scoped BigOperators

namespace Cert.MeanLayer

open Idealize.ShloMosaic Idealize.ShloMosaic.ValueIdx

/-- An `[a, b]` array of extended reals. -/
abbrev Mat (a b : ℕ) : Type := FVec Ideal ⟨2, ![a, b]⟩ .f32

/-- The shift of the weight sum: the binary32 number nearest `1e-8`, the same word in both programs. -/
abbrev shift : EReal := Ideal.ofBits .f32 0x322BCC77#32

/-- Entry `(p, q)` of the layer. -/
def entry {M : ℕ} (x nb : Mat M 128) (dg : Mat M 1) (ws wn : Mat 128 128) (bs bp : Fin 128 → EReal)
    (p : Fin M) (q : Fin 128) : EReal :=
  ((∑ k : Fin 128, x (ix2 p k) * ws (ix2 k q) + bs q)
    + ∑ k : Fin 128, Ideal.div (nb (ix2 p k)) (dg (ix2 p (0 : Fin 1)) + shift) * wn (ix2 k q)) + bp q

/-- The layer as an array. -/
def layer {M : ℕ} (x nb : Mat M 128) (dg : Mat M 1) (ws wn : Mat 128 128) (bs bp : Fin 128 → EReal) : Mat M 128 :=
  fun i => entry x nb dg ws wn bs bp (i 0) (i 1)

theorem layer_ix2 {M : ℕ} (x nb : Mat M 128) (dg : Mat M 1) (ws wn : Mat 128 128) (bs bp : Fin 128 → EReal)
    (p : Fin M) (q : Fin 128) : layer x nb dg ws wn bs bp (ix2 p q) = entry x nb dg ws wn bs bp p q := rfl

/-- The entry `(p, q)` over one family of arrays is the entry `(r, q)` over another when the node arrays agree on those
    rows and the matrices and bias rows agree everywhere: an entry reads row `p` of the three node arrays and nothing
    else of them. -/
theorem entry_congr {M M' : ℕ} (x nb : Mat M 128) (dg : Mat M 1) (x' nb' : Mat M' 128) (dg' : Mat M' 1)
    (ws wn ws' wn' : Mat 128 128) (bs bp bs' bp' : Fin 128 → EReal) (p : Fin M) (r : Fin M')
    (hx : ∀ k : Fin 128, x (ix2 p k) = x' (ix2 r k)) (hnb : ∀ k : Fin 128, nb (ix2 p k) = nb' (ix2 r k))
    (hdg : dg (ix2 p (0 : Fin 1)) = dg' (ix2 r (0 : Fin 1)))
    (hws : ∀ k q : Fin 128, ws (ix2 k q) = ws' (ix2 k q)) (hwn : ∀ k q : Fin 128, wn (ix2 k q) = wn' (ix2 k q))
    (hbs : ∀ q : Fin 128, bs q = bs' q) (hbp : ∀ q : Fin 128, bp q = bp' q) (q : Fin 128) :
    entry x nb dg ws wn bs bp p q = entry x' nb' dg' ws' wn' bs' bp' r q := by
  unfold entry
  rw [hdg, hbs q, hbp q]
  simp only [hx, hnb, hws, hwn]

end Cert.MeanLayer

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibColBroadcast.lean ====
/-
  A column broadcast over the columns, read at an index: a `[a, 1]` array broadcast to `[a, b]` reads, at `(p, c)`, the
  operand's row `p` (the `keepdims` form of a per-row scalar). General over the extents.
-/
import Idealize.ShloMosaic.Lib.Pipeline.Value
import Idealize.ShloMosaic.Lib.ValueIdx

noncomputable section

namespace Cert.Lib.ColBroadcast

open Idealize.ShloMosaic Idealize.ShloMosaic.ValueIdx

/-- A `[a, 1]` array broadcast to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same through `broadcast_in_dim` with the identity axis map. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColBroadcast

end
-- ==== Proof.KernelBody.lean ====
/-
  The kernel body's one stored value, read at an entry.

  At a grid point the body holds a block of 5000 rows of the features `x0`, of the neighbour sums `x1` and of the weight
  sums `x2` (a column), the two `128 × 128` matrices `x3`, `x5` and the two bias rows `x4`, `x6` (each a `[1, 128]`
  array). What it stores is, at row `p` and column `q`,

      ((∑ₖ x0 (p, k) · x3 (k, q) + x4 (0, q)) + ∑ₖ (x1 (p, k) / (x2 (p, 0) + ε)) · x5 (k, q)) + x6 (0, q):

  each matrix-unit product starts from a zero accumulator, so it is the plain sum over the contracted coordinate; the
  shifted weight sum is a column spread over the 128 columns, so at `(p, k)` it is its row `p`; a bias row spread over the
  rows is, at `(p, q)`, its entry `q`. That is `MeanLayer.entry` of the block.
-/
import proofs.«115254_j5205500362912_1_alg».proof.Proof.Gen.KernelIdeal.Skeleton
import proofs.«115254_j5205500362912_1_alg».proof.Proof.LayerSpec
import proofs.«115254_j5205500362912_1_alg».proof.Proof.LibPlainDot
import proofs.«115254_j5205500362912_1_alg».proof.Proof.LibColBroadcast
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.MeanLayer

/-- The body's contraction is the plain one: the left operand's columns against the right operand's rows. -/
theorem dot_plain : dot_S5000x128_S128x128_S5000x128_1_0_0_1_n_n = DotDims.plain 5000 128 128 := rfl

/-- A product into a zero accumulator, at `(p, q)`, is the sum over `k` of `l (p, k) · r (k, q)`. -/
theorem prod_apply (l : FVec Ideal S5000x128 .f32) (r : FVec Ideal S128x128 .f32) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  rw [dot_plain]
  exact Cert.Lib.PlainDot.matmul_zero_apply 5000 128 128 none l r (ix2 p q)

/-- The divisor: the weight-sum column plus the shift, spread over the columns, is at `(p, k)` the node's own
    shifted weight sum. -/
theorem shifted_apply (x2 : FVec Ideal S5000x1 .f32) (p : Fin 5000) (k : Fin 128) :
    broadcastTo S5000x128 (addf x2 (broadcast S5000x1 (FloatOps.ofBits (F := Ideal) .f32 0x322BCC77#32)))
        broadcasts_S5000x1_S5000x128 (ix2 p k)
      = x2 (ix2 p (0 : Fin 1)) + shift :=
  Cert.Lib.ColBroadcast.broadcastTo_a1_ab_apply _ broadcasts_S5000x1_S5000x128 p k

/-- The stored value at `(p, q)` is the layer's entry `(p, q)` over the block. -/
theorem pay_apply (x0 x1 : FVec Ideal S5000x128 .f32) (x2 : FVec Ideal S5000x1 .f32) (x3 : FVec Ideal S128x128 .f32)
    (x4 : FVec Ideal S1x128 .f32) (x5 : FVec Ideal S128x128 .f32) (x6 : FVec Ideal S1x128 .f32) (p : Fin 5000) (q : Fin 128) :
    k0_pay1 (F := Ideal) x0 x1 x2 x3 x4 x5 x6 (ix2 p q)
      = entry x0 x1 x2 x3 x5 (fun q => x4 (ix2 (0 : Fin 1) q)) (fun q => x6 (ix2 (0 : Fin 1) q)) p q := by
  unfold k0_pay1 entry
  simp only [shapeCast_self]
  refine congrArg₂ (· + ·) (congrArg₂ (· + ·) (congrArg₂ (· + ·) (prod_apply x0 x3 p q)
    (broadcastTo_1b_ab_apply x4 broadcasts_S1x128_S5000x128 p q)) ?_)
    (broadcastTo_1b_ab_apply x6 broadcasts_S1x128_S5000x128 p q)
  refine (prod_apply _ x5 p q).trans (Finset.sum_congr rfl fun k _ => ?_)
  exact congrArg (· * x5 (ix2 k q)) (congrArg (Ideal.div (x1 (ix2 p k))) (shifted_apply x2 p k))

/-- The same at an index given whole: its two coordinates are the row and the column. -/
theorem pay_at (x0 x1 : FVec Ideal S5000x128 .f32) (x2 : FVec Ideal S5000x1 .f32) (x3 : FVec Ideal S128x128 .f32)
    (x4 : FVec Ideal S1x128 .f32) (x5 : FVec Ideal S128x128 .f32) (x6 : FVec Ideal S1x128 .f32) (i : S5000x128.Idx) :
    k0_pay1 (F := Ideal) x0 x1 x2 x3 x4 x5 x6 i
      = entry x0 x1 x2 x3 x5 (fun q => x4 (ix2 (0 : Fin 1) q)) (fun q => x6 (ix2 (0 : Fin 1) q)) (i 0) (i 1) :=
  (congrArg (k0_pay1 (F := Ideal) x0 x1 x2 x3 x4 x5 x6) (eq_ix2 i)).trans (pay_apply x0 x1 x2 x3 x4 x5 x6 (i 0) (i 1))

end Cert.KernelIdeal.Body

end
-- ==== Proof.KernelArray.lean ====
/-
  From blocks to the array: the kernel's result array is the layer over all 50000 nodes.

  The grid has 10 points. At point `t` the three node arrays (features, neighbour sums, weight sums) are staged by blocks
  of 5000 rows, block `t` at point `t`; the two matrices and the two bias rows are staged whole; and the output's block
  `t` (rows `5000 t … 5000 t + 4999`) is written back. Row `p` of a block is row `5000 t + p` of its array, and an entry of
  the layer depends only on its own row of the node arrays, so what point `t` writes back is block `t` of ONE function of
  the arrays as the region finds them, `G`; the ten blocks cover the array, so the array ends holding `G`.

  The reads and the per-point lemma are stated over arbitrary array contents: the neighbour sums and the weight sums are
  computed by the host before the region, and nothing here needs to know what they hold.
-/
import proofs.«115254_j5205500362912_1_alg».proof.Proof.Gen.KernelIdeal.Value
import proofs.«115254_j5205500362912_1_alg».proof.Proof.KernelBody
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.MeanLayer
open Idealize.ShloMosaic.Pipeline (Dat)

variable (m : (ℓ : Loc nD τ sig) → Buf (Elt Ideal) ℓ) (ρ : Dev nD → PrngReg)

/-- Every access of the body starts at the origin of its buffer. -/
theorem hz : (![0, 0] : Fin 2 → Nat) = fun _ => 0 := funext fun a => by fin_cases a <;> rfl

/-- The printed index maps over the grid: the three node arrays and the output move by one block of rows per point,
    the matrices and bias rows stay at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input block read where it lies in its array

Over arbitrary contents `A` of the array: an element of a block sits, on each axis, at the block's index times the
block's size plus its own coordinate. -/

/-- Row `p` of the feature block at point `t` is row `5000 t + p` of the array. -/
theorem read0 (t : Fin cfg0.N) (A : S50000x128.Idx → EReal) (p : Fin 5000) (k : Fin 128) (r : Fin 50000) (hr : r.val = t.val * 5000 + p.val) :
    (((cfg0.win 0).blk t).view.read (Elt Ideal) A : S5000x128.Idx → EReal) (ix2 p k) = A (ix2 r k) := by
  rw [View.read_apply]
  show A _ = A _
  refine congrArg A (funext fun a => Fin.ext ?_)
  have e := idx_facts t
  match a with
  | ⟨0, _⟩ => show win0_0.index t (0 : Fin 2) * 5000 + 1 * p.val = r.val; rw [e.1, hr]; omega
  | ⟨1, _⟩ => show win0_0.index t (1 : Fin 2) * 128 + 1 * k.val = k.val; rw [e.2.1]; omega

/-- Row `p` of the neighbour-sum block at point `t` is row `5000 t + p` of the array. -/
theorem read1 (t : Fin cfg0.N) (A : S50000x128.Idx → EReal) (p : Fin 5000) (k : Fin 128) (r : Fin 50000) (hr : r.val = t.val * 5000 + p.val) :
    (((cfg0.win 1).blk t).view.read (Elt Ideal) A : S5000x128.Idx → EReal) (ix2 p k) = A (ix2 r k) := by
  rw [View.read_apply]
  show A _ = A _
  refine congrArg A (funext fun a => Fin.ext ?_)
  have e := idx_facts t
  match a with
  | ⟨0, _⟩ => show win0_1.index t (0 : Fin 2) * 5000 + 1 * p.val = r.val; rw [e.2.2.1, hr]; omega
  | ⟨1, _⟩ => show win0_1.index t (1 : Fin 2) * 128 + 1 * k.val = k.val; rw [e.2.2.2.1]; omega

/-- Row `p` of the weight-sum block at point `t` is row `5000 t + p` of the column. -/
theorem read2 (t : Fin cfg0.N) (A : S50000x1.Idx → EReal) (p : Fin 5000) (r : Fin 50000) (hr : r.val = t.val * 5000 + p.val) :
    (((cfg0.win 2).blk t).view.read (Elt Ideal) A : S5000x1.Idx → EReal) (ix2 p (0 : Fin 1)) = A (ix2 r (0 : Fin 1)) := by
  rw [View.read_apply]
  show A _ = A _
  refine congrArg A (funext fun a => Fin.ext ?_)
  have e := idx_facts t
  match a with
  | ⟨0, _⟩ => show win0_2.index t (0 : Fin 2) * 5000 + 1 * p.val = r.val; rw [e.2.2.2.2.1, hr]; omega
  | ⟨1, _⟩ => show win0_2.index t (1 : Fin 2) * 1 + 1 * 0 = 0; rw [e.2.2.2.2.2.1]

/-- The first matrix is staged whole. -/
theorem read3 (t : Fin cfg0.N) (A : S128x128.Idx → EReal) (k q : Fin 128) :
    (((cfg0.win 3).blk t).view.read (Elt Ideal) A : S128x128.Idx → EReal) (ix2 k q) = A (ix2 k q) := by
  rw [View.read_apply]
  show A _ = A _
  refine congrArg A (funext fun a => Fin.ext ?_)
  have e := idx_facts t
  match a with
  | ⟨0, _⟩ => show win0_3.index t (0 : Fin 2) * 128 + 1 * k.val = k.val; rw [e.2.2.2.2.2.2.1]; omega
  | ⟨1, _⟩ => show win0_3.index t (1 : Fin 2) * 128 + 1 * q.val = q.val; rw [e.2.2.2.2.2.2.2.1]; omega

/-- The first bias row is staged whole. -/
theorem read4 (t : Fin cfg0.N) (A : S1x128.Idx → EReal) (q : Fin 128) :
    (((cfg0.win 4).blk t).view.read (Elt Ideal) A : S1x128.Idx → EReal) (ix2 (0 : Fin 1) q) = A (ix2 (0 : Fin 1) q) := by
  rw [View.read_apply]
  show A _ = A _
  refine congrArg A (funext fun a => Fin.ext ?_)
  have e := idx_facts t
  match a with
  | ⟨0, _⟩ => show win0_4.index t (0 : Fin 2) * 1 + 1 * 0 = 0; rw [e.2.2.2.2.2.2.2.2.1]
  | ⟨1, _⟩ => show win0_4.index t (1 : Fin 2) * 128 + 1 * q.val = q.val; rw [e.2.2.2.2.2.2.2.2.2.1]; omega

/-- The second matrix is staged whole. -/
theorem read5 (t : Fin cfg0.N) (A : S128x128.Idx → EReal) (k q : Fin 128) :
    (((cfg0.win 5).blk t).view.read (Elt Ideal) A : S128x128.Idx → EReal) (ix2 k q) = A (ix2 k q) := by
  rw [View.read_apply]
  show A _ = A _
  refine congrArg A (funext fun a => Fin.ext ?_)
  have e := idx_facts t
  match a with
  | ⟨0, _⟩ => show win0_5.index t (0 : Fin 2) * 128 + 1 * k.val = k.val; rw [e.2.2.2.2.2.2.2.2.2.2.1]; omega
  | ⟨1, _⟩ => show win0_5.index t (1 : Fin 2) * 128 + 1 * q.val = q.val; rw [e.2.2.2.2.2.2.2.2.2.2.2.1]; omega

/-- The second bias row is staged whole. -/
theorem read6 (t : Fin cfg0.N) (A : S1x128.Idx → EReal) (q : Fin 128) :
    (((cfg0.win 6).blk t).view.read (Elt Ideal) A : S1x128.Idx → EReal) (ix2 (0 : Fin 1) q) = A (ix2 (0 : Fin 1) q) := by
  rw [View.read_apply]
  show A _ = A _
  refine congrArg A (funext fun a => Fin.ext ?_)
  have e := idx_facts t
  match a with
  | ⟨0, _⟩ => show win0_6.index t (0 : Fin 2) * 1 + 1 * 0 = 0; rw [e.2.2.2.2.2.2.2.2.2.2.2.2.1]
  | ⟨1, _⟩ => show win0_6.index t (1 : Fin 2) * 128 + 1 * q.val = q.val; rw [e.2.2.2.2.2.2.2.2.2.2.2.2.2.1]; omega

/-! ## One point -/

/-- The row of the array that row `p` of point `t`'s block is. -/
theorem row_lt (t : Fin cfg0.N) (p : Fin 5000) : t.val * 5000 + p.val < 50000 := by
  have hN : cfg0.N = 10 := N_0
  have ht : t.val < 10 := hN ▸ t.isLt
  have hp := p.isLt
  omega

/-- Where an element of the output's block at point `t` lies in the result array. -/
theorem emb7 (t : Fin cfg0.N) (j : S5000x128.Idx) :
    ((cfg0.win 7).blk t).view.emb j = ix2 (⟨t.val * 5000 + (j 0).val, row_lt t (j 0)⟩ : Fin 50000) (j 1) := by
  have e := idx_facts t
  refine funext fun a => Fin.ext ?_
  match a with
  | ⟨0, _⟩ => show win0_7.index t (0 : Fin 2) * 5000 + 1 * (j 0).val = t.val * 5000 + (j 0).val; rw [e.2.2.2.2.2.2.2.2.2.2.2.2.2.2.1]; omega
  | ⟨1, _⟩ => show win0_7.index t (1 : Fin 2) * 128 + 1 * (j 1).val = (j 1).val; rw [e.2.2.2.2.2.2.2.2.2.2.2.2.2.2.2]; omega

/-- AT ONE POINT, over arbitrary contents: if the staged blocks `x0 … x6` are the rows `5000 t …` of the node arrays
    `A0`, `A1`, `A2` and the whole of `A3 … A6`, what the body leaves in the output's buffer is block `t` of the layer
    over the whole arrays. -/
theorem block_eq (t : Fin cfg0.N) (A0 A1 : S50000x128.Idx → EReal) (A2 : S50000x1.Idx → EReal) (A3 : S128x128.Idx → EReal)
    (A4 : S1x128.Idx → EReal) (A5 : S128x128.Idx → EReal) (A6 : S1x128.Idx → EReal)
    (x0 x1 : FVec Ideal S5000x128 .f32) (x2 : FVec Ideal S5000x1 .f32) (x3 : FVec Ideal S128x128 .f32)
    (x4 : FVec Ideal S1x128 .f32) (x5 : FVec Ideal S128x128 .f32) (x6 : FVec Ideal S1x128 .f32)
    (h0 : ∀ (p : Fin 5000) (k : Fin 128) (r : Fin 50000), r.val = t.val * 5000 + p.val → x0 (ix2 p k) = A0 (ix2 r k))
    (h1 : ∀ (p : Fin 5000) (k : Fin 128) (r : Fin 50000), r.val = t.val * 5000 + p.val → x1 (ix2 p k) = A1 (ix2 r k))
    (h2 : ∀ (p : Fin 5000) (r : Fin 50000), r.val = t.val * 5000 + p.val → x2 (ix2 p (0 : Fin 1)) = A2 (ix2 r (0 : Fin 1)))
    (h3 : ∀ k q : Fin 128, x3 (ix2 k q) = A3 (ix2 k q)) (h4 : ∀ q : Fin 128, x4 (ix2 (0 : Fin 1) q) = A4 (ix2 (0 : Fin 1) q))
    (h5 : ∀ k q : Fin 128, x5 (ix2 k q) = A5 (ix2 k q)) (h6 : ∀ q : Fin 128, x6 (ix2 (0 : Fin 1) q) = A6 (ix2 (0 : Fin 1) q)) :
    (cfg0.win 7).cut (grid0.coords t) (out0_7 (F := Ideal) x0 x1 x2 x3 x4 x5 x6)
      = ((cfg0.win 7).blk t).view.read (Elt Ideal)
          (layer (M := 50000) A0 A1 A2 A3 A5 (fun q => A4 (ix2 (0 : Fin 1) q)) (fun q => A6 (ix2 (0 : Fin 1) q))) := by
  unfold out0_7
  rw [View.canon_unit_zero hz]
  simp only [View.ld_unit_zero (S := S5000x128) hz, View.ld_unit_zero (S := S5000x1) hz, View.ld_unit_zero (S := S128x128) hz, View.ld_unit_zero (S := S1x128) hz]
  funext j
  rw [View.read_apply]
  show k0_pay1 (F := Ideal) x0 x1 x2 x3 x4 x5 x6 j
    = layer (M := 50000) A0 A1 A2 A3 A5 (fun q => A4 (ix2 (0 : Fin 1) q)) (fun q => A6 (ix2 (0 : Fin 1) q)) (((cfg0.win 7).blk t).view.emb j)
  rw [emb7 t j]
  refine (Body.pay_at x0 x1 x2 x3 x4 x5 x6 j).trans ?_
  exact entry_congr x0 x1 x2 A0 A1 A2 x3 x5 A3 A5 _ _ _ _ (j 0) ⟨t.val * 5000 + (j 0).val, row_lt t (j 0)⟩
    (fun k => h0 (j 0) k _ rfl) (fun k => h1 (j 0) k _ rfl) (h2 (j 0) _ rfl) h3 h5 h4 h6 (j 1)

/-! ## The array -/

/-- The result array as ONE function of what the region finds in its operands' arrays: the layer over all 50000 nodes. -/
def G (c : Dev nD) : S50000x128.Idx → EReal :=
  layer (M := 50000) (V m c main_arg0) (V m c main_v11) (V m c main_v14) (V m c main_v15) (V m c main_v16)
    (fun q => (V m c main_v17 : S1x128.Idx → EReal) (ix2 (0 : Fin 1) q))
    (fun q => (V m c main_v18 : S1x128.Idx → EReal) (ix2 (0 : Fin 1) q))

/-- What point `t` writes back is block `t` of `G`. -/
theorem flushed_eq (c : Dev nD) (t : Fin cfg0.N) :
    (dats m 0 c).flushed 7 t = ((cfg0.win 7).blk t).view.read (Elt Ideal) (G m c) := by
  rw [flushed7]
  exact block_eq t (V m c main_arg0) (V m c main_v11) (V m c main_v14) (V m c main_v15) (V m c main_v17) (V m c main_v16)
    (V m c main_v18) (iblk m c 0 t) (iblk m c 1 t) (iblk m c 2 t) (iblk m c 3 t) (iblk m c 4 t) (iblk m c 5 t) (iblk m c 6 t)
    (fun p k r hr => read0 t (V m c main_arg0) p k r hr) (fun p k r hr => read1 t (V m c main_v11) p k r hr)
    (fun p r hr => read2 t (V m c main_v14) p r hr) (fun k q => read3 t (V m c main_v15) k q)
    (fun q => read4 t (V m c main_v17) q) (fun k q => read5 t (V m c main_v16) k q) (fun q => read6 t (V m c main_v18) q)

/-- An index of the result array lies in point `t`'s block iff each coordinate lies in the block's range. -/
theorem mem_blk (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v19).slice (win0_7.rect t)).set ↔ _
  rw [View.set_slice_whole, Rect.mem_set_unit]
  exact Iff.rfl

/-- Every row is in some point's block: row `r` in that of point `r / 5000`. -/
theorem cover (i : S50000x128.Idx) : ∃ t : Fin cfg0.N, (cfg0.win 7).flush t = true ∧ i ∈ ((cfg0.win 7).blk t).view.set := by
  have hN : cfg0.N = 10 := N_0
  have hi0 : (i 0).val < 50000 := (i 0).isLt
  have hi1 : (i 1).val < 128 := (i 1).isLt
  have ht : (i 0).val / 5000 < cfg0.N := by rw [hN]; omega
  refine ⟨⟨(i 0).val / 5000, ht⟩, flush0_7 _, ?_⟩
  rw [mem_blk]
  have e := idx_facts ⟨(i 0).val / 5000, ht⟩
  have e0 : win0_7.index ⟨(i 0).val / 5000, ht⟩ (0 : Fin 2) = (i 0).val / 5000 := e.2.2.2.2.2.2.2.2.2.2.2.2.2.2.1
  have e1 : win0_7.index ⟨(i 0).val / 5000, ht⟩ (1 : Fin 2) = 0 := e.2.2.2.2.2.2.2.2.2.2.2.2.2.2.2
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e0]; omega
  | ⟨1, _⟩ =>
    show win0_7.index ⟨(i 0).val / 5000, ht⟩ (1 : Fin 2) * 128 ≤ (i 1).val ∧ (i 1).val < win0_7.index ⟨(i 0).val / 5000, ht⟩ (1 : Fin 2) * 128 + 128
    rw [e1]; omega

/-- So the result array ends holding `G`. -/
theorem final (c : Dev nD) : (dats m 0 c).arrAt 7 cfg0.N = G m c :=
  (dats m 0 c).arrAt_eq_of_cover 7 (G m c) (fun t _ => flushed_eq m c t) cover

/-- The kernel's run, read: the result at `G`, the arguments unchanged. -/
theorem run : θ_run defs (onTc (τ := τ) (main (F := Ideal))) ⟨m, fun _ => 0, ρ⟩ fun r => ∀ c : Dev nD,
      r.2.mem ((c : Thread nD τ).loc main_v19) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Whole

end
-- ==== Proof.ReferenceLayer.lean ====
/-
  The reference's result is the layer.

  Read one operation at a time, entry `(p, q)` of the reference's result is

      ((∑ₖ x (p, k) · Wsᵀ (k, q) + bs q) + ∑ₖ (nb (p, k) / (dg (p, 0) + ε)) · Wnᵀ (k, q)) + bp q

  where `nb` and `dg` are the two scatter-added arrays (the weighted neighbour sum and the weight sum), `Wsᵀ`, `Wnᵀ` the
  transposed weight matrices, and each bias vector reaches the sum through a `[1, 128]` row spread over the rows. The two
  scatter-adds and the two transposes are kept as they are: they are operands of the layer, not part of it.
-/
import proofs.«115254_j5205500362912_1_alg».proof.Proof.Gen.ReferenceIdeal.Read
import proofs.«115254_j5205500362912_1_alg».proof.Proof.LayerSpec

noncomputable section

namespace Cert.ReferenceIdeal.Layer

open Cert.ReferenceIdeal Cert.ReferenceIdeal.Read Idealize.ShloMosaic Idealize.ShloMosaic.ValueIdx Cert.MeanLayer

/-- Where the two products read their operands for the entry `(p, q)`: the left at `(p, k)`, the right at `(k, q)`. -/
theorem lidx22 (p : Fin 50000) (q k : Fin 128) : lidx_main_v22 (ix2 p q) k = ix2 p k :=
  funext fun a => Fin.ext (by match a with | ⟨0, _⟩ => rfl | ⟨1, _⟩ => rfl)
theorem ridx22 (p : Fin 50000) (q k : Fin 128) : ridx_main_v22 (ix2 p q) k = ix2 k q :=
  funext fun a => Fin.ext (by match a with | ⟨0, _⟩ => rfl | ⟨1, _⟩ => rfl)
theorem lidx20 (p : Fin 50000) (q k : Fin 128) : lidx_main_v20 (ix2 p q) k = ix2 p k :=
  funext fun a => Fin.ext (by match a with | ⟨0, _⟩ => rfl | ⟨1, _⟩ => rfl)
theorem ridx20 (p : Fin 50000) (q k : Fin 128) : ridx_main_v20 (ix2 p q) k = ix2 k q :=
  funext fun a => Fin.ext (by match a with | ⟨0, _⟩ => rfl | ⟨1, _⟩ => rfl)
/-- A bias vector spread to a row and the row over the rows: entry `(p, q)` reads the vector at `q`. -/
theorem idx_bs (p : Fin 50000) (q : Fin 128) : idx_main_v23 (idx_main_v24 (ix2 p q)) = ix1 q :=
  funext fun a => Fin.ext (by match a with | ⟨0, _⟩ => rfl)
theorem idx_bp (p : Fin 50000) (q : Fin 128) : idx_main_v27 (idx_main_v28 (ix2 p q)) = ix1 q :=
  funext fun a => Fin.ext (by match a with | ⟨0, _⟩ => rfl)
/-- The shifted weight sum spread over the columns: entry `(p, k)` reads the column at row `p`. -/
theorem idx_dg (p : Fin 50000) (k : Fin 128) : idx_main_v17 (ix2 p k) = ix2 p (0 : Fin 1) :=
  funext fun a => Fin.ext (by match a with | ⟨0, _⟩ => rfl | ⟨1, _⟩ => rfl)

/-- The quotient the second product reads at `(p, k)`: the scatter-added neighbour sum there over the node's own
    shifted weight sum. -/
theorem quotient_at (x0 : (⟨S50000x128, .f32⟩ : BufTy).Contents (Elt Ideal)) (x1 x2 : (⟨S800000, .i32⟩ : BufTy).Contents (Elt Ideal))
    (x3 : (⟨S800000x1, .f32⟩ : BufTy).Contents (Elt Ideal)) (p : Fin 50000) (k : Fin 128) :
    val_main_v18 (F := Ideal) x0 x1 x2 x3 (ix2 p k)
      = Ideal.div (val_main_v11 (F := Ideal) x0 x1 x2 x3 (ix2 p k)) (val_main_v14 (F := Ideal) x2 x3 (ix2 p (0 : Fin 1)) + shift) := by
  rw [val_main_v18_apply, val_main_v17_apply, idx_dg, val_main_v16_apply, val_main_v15_apply, val_main_cst_2_apply]
  generalize val_main_v11 (F := Ideal) x0 x1 x2 x3 (ix2 p k) = a
  generalize val_main_v14 (F := Ideal) x2 x3 (ix2 p (0 : Fin 1)) = b
  rfl

/-- The reference's result, as a function of its arguments, is the layer over the features, the two scatter-added
    arrays, the two transposed matrices and the two bias vectors. -/
theorem result_eq (x0 : (⟨S50000x128, .f32⟩ : BufTy).Contents (Elt Ideal)) (x1 x2 : (⟨S800000, .i32⟩ : BufTy).Contents (Elt Ideal))
    (x3 : (⟨S800000x1, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v29 (F := Ideal) x0 x1 x2 x3 x4 x5 x6 x7
      = layer (M := 50000) x0 (val_main_v11 (F := Ideal) x0 x1 x2 x3) (val_main_v14 (F := Ideal) x2 x3)
          (val_main_v21 (F := Ideal) x4) (val_main_v19 (F := Ideal) x6) (fun q => x5 (ix1 q)) (fun q => x7 (ix1 q)) := by
  funext i
  obtain ⟨p, q, rfl⟩ : ∃ (p : Fin 50000) (q : Fin 128), i = ix2 p q := ⟨i 0, i 1, eq_ix2 i⟩
  rw [layer_ix2]
  unfold entry
  rw [val_main_v29_apply, val_main_v26_apply, val_main_v25_apply, val_main_v22_apply, val_main_v24_apply, val_main_v23_apply,
    val_main_v20_apply, val_main_v28_apply, val_main_v27_apply]
  simp only [lidx22, ridx22, lidx20, ridx20, idx_bs, idx_bp, quotient_at]
  generalize val_main_v11 (F := Ideal) x0 x1 x2 x3 = nb
  generalize val_main_v14 (F := Ideal) x2 x3 = dg
  generalize val_main_v21 (F := Ideal) x4 = ws
  generalize val_main_v19 (F := Ideal) x6 = wn
  rfl

end Cert.ReferenceIdeal.Layer

end
-- ==== Proof.Operands.lean ====
/-
  The operands of the layer, in the kernel's program and in the reference.

  Before the region the kernel's program computes on the host, from the same arguments and by the same operations as
  the reference, the weighted neighbour sum and the weight sum (a gather of the source rows, the product with the edge
  weights, two scatter-adds at the destination nodes) and transposes the two weight matrices; it reshapes each bias
  vector to a `[1, 128]` row. So the arrays the region finds are the reference's own intermediate values of the same
  arguments — the scatter-adds and the transposes are never opened, only recognised —, a bias row's entry `(0, q)` is the
  vector's entry `q`, and the kernel's whole-array function `G` is the layer over the reference's operands.
-/
import proofs.«115254_j5205500362912_1_alg».proof.Proof.KernelArray
import proofs.«115254_j5205500362912_1_alg».proof.Proof.Gen.ReferenceIdeal.Read
import Idealize.ShloMosaic.Lib.StableHlo.Run
import Idealize.ShloMosaic.Lib.ValueLayout

noncomputable section

namespace Cert.KernelIdeal.Operands

open Cert.KernelIdeal Cert.KernelIdeal.Gen Idealize.ShloMosaic Idealize.ShloMosaic.TcCoe Idealize.SL.Sem Idealize.ShloMosaic.StableHlo
open Idealize.ShloMosaic.ValueIdx Cert.MeanLayer

variable (m : (ℓ : Loc nD τ sig) → Buf (Elt Ideal) ℓ)

/-- The neighbour sums the region finds are the reference's scatter-added array of the same arguments. -/
theorem nb_eq (c : Dev nD) : (V m c main_v11 : S50000x128.Idx → EReal)
    = Cert.ReferenceIdeal.Read.val_main_v11 (F := Ideal) (m ((c : Thread nD τ).loc main_arg0)) (m ((c : Thread nD τ).loc main_arg1))
        (m ((c : Thread nD τ).loc main_arg2)) (m ((c : Thread nD τ).loc main_arg3)) := by
  dsimp only [Gen.V, Gen.hostOps0]
  after_results
  rfl

/-- The weight sums the region finds are the reference's. -/
theorem dg_eq (c : Dev nD) : (V m c main_v14 : S50000x1.Idx → EReal)
    = Cert.ReferenceIdeal.Read.val_main_v14 (F := Ideal) (m ((c : Thread nD τ).loc main_arg2)) (m ((c : Thread nD τ).loc main_arg3)) := by
  dsimp only [Gen.V, Gen.hostOps0]
  after_results
  rfl

/-- The first matrix the region finds is the reference's transposed one. -/
theorem ws_eq (c : Dev nD) : (V m c main_v15 : S128x128.Idx → EReal)
    = Cert.ReferenceIdeal.Read.val_main_v21 (F := Ideal) (m ((c : Thread nD τ).loc main_arg4)) := by
  dsimp only [Gen.V, Gen.hostOps0]
  after_results
  rfl

/-- The second matrix the region finds is the reference's transposed one. -/
theorem wn_eq (c : Dev nD) : (V m c main_v16 : S128x128.Idx → EReal)
    = Cert.ReferenceIdeal.Read.val_main_v19 (F := Ideal) (m ((c : Thread nD τ).loc main_arg6)) := by
  dsimp only [Gen.V, Gen.hostOps0]
  after_results
  rfl

/-- The first bias row's entry `(0, q)` is the bias vector's entry `q`. -/
theorem bs_eq (c : Dev nD) : (fun q : Fin 128 => (V m c main_v17 : S1x128.Idx → EReal) (ix2 (0 : Fin 1) q))
    = fun q : Fin 128 => (m ((c : Thread nD τ).loc main_arg5) : S128.Idx → EReal) (ix1 q) := by
  have e : (V m c main_v17 : S1x128.Idx → EReal)
      = shapeCast S1x128 (m ((c : Thread nD τ).loc main_arg5) : S128.Idx → EReal) shapeCasts_S128_S1x128 := by
    dsimp only [Gen.V, Gen.hostOps0]
    after_results
    rfl
  funext q
  rw [e]
  exact shapeCast_a_1a_apply _ shapeCasts_S128_S1x128 (0 : Fin 1) q

/-- The second bias row's entry `(0, q)` is the bias vector's entry `q`. -/
theorem bp_eq (c : Dev nD) : (fun q : Fin 128 => (V m c main_v18 : S1x128.Idx → EReal) (ix2 (0 : Fin 1) q))
    = fun q : Fin 128 => (m ((c : Thread nD τ).loc main_arg7) : S128.Idx → EReal) (ix1 q) := by
  have e : (V m c main_v18 : S1x128.Idx → EReal)
      = shapeCast S1x128 (m ((c : Thread nD τ).loc main_arg7) : S128.Idx → EReal) shapeCasts_S128_S1x128 := by
    dsimp only [Gen.V, Gen.hostOps0]
    after_results
    rfl
  funext q
  rw [e]
  exact shapeCast_a_1a_apply _ shapeCasts_S128_S1x128 (0 : Fin 1) q

/-- The layer is a function of its seven operands. -/
theorem layer_congr {x x' nb nb' : Mat 50000 128} {dg dg' : Mat 50000 1} {ws ws' wn wn' : Mat 128 128}
    {bs bs' bp bp' : Fin 128 → EReal} (hx : x = x') (hnb : nb = nb') (hdg : dg = dg') (hws : ws = ws') (hwn : wn = wn')
    (hbs : bs = bs') (hbp : bp = bp') : layer x nb dg ws wn bs bp = layer x' nb' dg' ws' wn' bs' bp' := by
  subst hx hnb hdg hws hwn hbs hbp
  rfl

/-- The kernel's result array is the layer over the reference's operands of the kernel's own arguments. -/
theorem G_eq (c : Dev nD) : Whole.G m c
    = layer (M := 50000) (m ((c : Thread nD τ).loc main_arg0))
        (Cert.ReferenceIdeal.Read.val_main_v11 (F := Ideal) (m ((c : Thread nD τ).loc main_arg0)) (m ((c : Thread nD τ).loc main_arg1))
          (m ((c : Thread nD τ).loc main_arg2)) (m ((c : Thread nD τ).loc main_arg3)))
        (Cert.ReferenceIdeal.Read.val_main_v14 (F := Ideal) (m ((c : Thread nD τ).loc main_arg2)) (m ((c : Thread nD τ).loc main_arg3)))
        (Cert.ReferenceIdeal.Read.val_main_v21 (F := Ideal) (m ((c : Thread nD τ).loc main_arg4)))
        (Cert.ReferenceIdeal.Read.val_main_v19 (F := Ideal) (m ((c : Thread nD τ).loc main_arg6)))
        (fun q : Fin 128 => (m ((c : Thread nD τ).loc main_arg5) : S128.Idx → EReal) (ix1 q))
        (fun q : Fin 128 => (m ((c : Thread nD τ).loc main_arg7) : S128.Idx → EReal) (ix1 q)) := by
  unfold Whole.G
  exact layer_congr (V_main_arg0 m c) (nb_eq m c) (dg_eq m c) (ws_eq m c) (wn_eq m c) (bs_eq m c) (bp_eq m c)

end Cert.KernelIdeal.Operands

end
-- ==== Proof.lean ====
/-
  The kernel against its reference: one graph layer, over the extended reals.

  Both programs take node features `x`, an edge list (`src`, `dst`) with edge weights, two `128 × 128` weight matrices
  and two bias vectors. On the host both gather the source rows, multiply by the edge weights and scatter-add at the
  destination nodes (the weighted neighbour sum `nb`), and scatter-add the weights alone (the weight sum `dg`). The
  reference then computes, for every node `p`,

      (x p · Wsᵀ + bs) + ((nb p / (dg p + ε)) · Wnᵀ) + bp

  by host operations; the kernel computes the same expression on the chip, ten blocks of 5000 nodes one after the other,
  each matrix product accumulated from zero on the matrix unit. Over the extended reals a product into a zero
  accumulator and the host's contraction are the same sum over the contracted coordinate, the two divisions are one
  function, the shift `ε` is one word in both programs, and the three additions come in the same order: the two results
  are the same function `MeanLayer.layer` of the same operands, entry by entry. No law of arithmetic is used beyond
  that, so the finiteness of the inputs is never opened.

  The modules: `LayerSpec` (the layer), `KernelBody` (what the body stores, at an entry), `KernelArray` (the ten blocks make
  the array), `ReferenceLayer` (the reference's result is the layer), `Operands` (both programs feed the layer the same
  operands); here, the five claims.
-/
import proofs.«115254_j5205500362912_1_alg».proof.Defs
import proofs.«115254_j5205500362912_1_alg».proof.Proof.Gen.Kernel
import proofs.«115254_j5205500362912_1_alg».proof.Proof.Gen.Kernel.Skeleton
import proofs.«115254_j5205500362912_1_alg».proof.Proof.Gen.Kernel.Launch
import proofs.«115254_j5205500362912_1_alg».proof.Proof.Gen.Kernel.Points
import proofs.«115254_j5205500362912_1_alg».proof.Proof.Gen.Kernel.Frame
import proofs.«115254_j5205500362912_1_alg».proof.Proof.Gen.KernelIdeal
import proofs.«115254_j5205500362912_1_alg».proof.Proof.Gen.KernelIdeal.Skeleton
import proofs.«115254_j5205500362912_1_alg».proof.Proof.Gen.KernelIdeal.Launch
import proofs.«115254_j5205500362912_1_alg».proof.Proof.Gen.KernelIdeal.Points
import proofs.«115254_j5205500362912_1_alg».proof.Proof.Gen.KernelIdeal.Frame
import proofs.«115254_j5205500362912_1_alg».proof.Proof.Gen.ReferenceIdeal
import proofs.«115254_j5205500362912_1_alg».proof.Proof.Gen.Pre_finite_inputs
import proofs.«115254_j5205500362912_1_alg».proof.Proof.Gen.KernelIdeal.Value
import proofs.«115254_j5205500362912_1_alg».proof.Proof.Gen.ReferenceIdeal.Run
import proofs.«115254_j5205500362912_1_alg».proof.Proof.Gen.ReferenceIdeal.Read
import proofs.«115254_j5205500362912_1_alg».proof.Proof.KernelArray
import proofs.«115254_j5205500362912_1_alg».proof.Proof.ReferenceLayer
import proofs.«115254_j5205500362912_1_alg».proof.Proof.Operands
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of those arguments: the kernel's array
    is the layer over the reference's operands (`Operands.G_eq`), the reference's result is the layer over its own
    (`Layer.result_eq`). -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7, Cert.ReferenceIdeal.Read.val_main_v29_eq, Cert.ReferenceIdeal.Layer.result_eq]
  exact (Cert.KernelIdeal.Operands.G_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
